-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000 : Shape := ⟨1, ![50000]⟩
abbrev S800000 : Shape := ⟨1, ![800000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000 : S_.BroadcastsInDim S50000 (![] : Fin 0 → Fin S50000.rank)
  reducesTo_S50000_S_d0 : S50000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x256 .f32) (main_arg1 : FVec F S50000 .f32) (main_arg2 : IVec S800000 32) (main_arg3 : IVec S800000 32) (main_arg4 : FVec F S256x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x256 : Shape := ⟨2, ![50000, 256]⟩
abbrev S50000 : Shape := ⟨1, ![50000]⟩
abbrev S800000 : Shape := ⟨1, ![800000]⟩
abbrev S256x64 : Shape := ⟨2, ![256, 64]⟩
abbrev S64 : Shape := ⟨1, ![64]⟩
abbrev S50000x64 : Shape := ⟨2, ![50000, 64]⟩
abbrev S5000x256 : Shape := ⟨2, ![5000, 256]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S5000x1 : Shape := ⟨2, ![5000, 1]⟩

abbrev nBuf : Space → Nat
  | .hbm => 35
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S50000, .f32⟩
  | .hbm, ⟨2, _⟩ => ⟨S800000, .i32⟩
  | .hbm, ⟨3, _⟩ => ⟨S800000, .i32⟩
  | .hbm, ⟨4, _⟩ => ⟨S256x64, .f32⟩
  | .hbm, ⟨5, _⟩ => ⟨S64, .f32⟩
  | .hbm, ⟨6, _⟩ => ⟨S50000x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000, .f32⟩
  | .hbm, ⟨25, _⟩ => ⟨S800000x1, .f32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x1, .f32⟩
  | .hbm, ⟨33, _⟩ => ⟨S1x64, .f32⟩
  | .hbm, ⟨34, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S50000 : Shape := ⟨1, ![50000]⟩
abbrev S800000 : Shape := ⟨1, ![800000]⟩
abbrev S256x64 : Shape := ⟨2, ![256, 64]⟩
abbrev S64 : Shape := ⟨1, ![64]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .f32⟩
  | .hbm, ⟨2, _⟩ => ⟨S800000, .i32⟩
  | .hbm, ⟨3, _⟩ => ⟨S800000, .i32⟩
  | .hbm, ⟨4, _⟩ => ⟨S256x64, .f32⟩
  | .hbm, ⟨5, _⟩ => ⟨S64, .f32⟩
  | .hbm, ⟨6, _⟩ => ⟨S50000x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000, .f32⟩
  | .hbm, ⟨25, _⟩ => ⟨S800000x1, .f32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x1, .f32⟩
  | .hbm, ⟨33, _⟩ => ⟨S50000x64, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S_, .f32⟩
  | .hbm, ⟨39, _⟩ => ⟨S50000x64, .f32⟩
  | .hbm, ⟨40, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_cst : Ref sig .tc := ⟨.hbm, 38, rfl⟩
abbrev main_call0_v0 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.Entries.lean ====
/-
  The two kernel bodies, read one entry at a time on the extended reals.

  The projection body multiplies a block of 5000 rows of the node features by the whole weight matrix: entry
  (p, q) of what it stores is the sum over the 256 input features u of x(p, u) · w(u, q); rounding the operands
  to bf16 first changes nothing on the extended reals. The epilogue body takes a block of 5000 rows of the
  aggregated messages, the matching 5000 entries of the normalisation column and the one bias row: entry (p, q)
  of what it stores is max(a(p, q) · n(p, 0) + b(0, q), 0).
-/
import proofs.«148429_j40501541601587_1_alg».proof.Proof.Gen.KernelIdeal.Skeleton
import proofs.«148429_j40501541601587_1_alg».proof.Proof.LibDenseRows
import Idealize.ShloMosaic.Lib.ValueIdx
import Idealize.ShloMosaic.Lib.Pipeline.Value
import Idealize.ShloMosaic.PureOps.Ideal.Laws

noncomputable section

open scoped BigOperators

namespace Cert.GcnAgg

open Idealize.ShloMosaic Idealize.ShloMosaic.ValueIdx Cert.KernelIdeal Cert.KernelIdeal.Gen

/-- One row repeated down the rows: entry (r, c) of the result is the row's entry (0, c). -/
theorem row_repeat_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The projection body at entry (p, q): row p of the feature block against column q of the weights. -/
theorem project_block_apply (x : Vec Ideal S5000x256 .f32) (w : Vec Ideal S256x64 .f32) (p : Fin 5000) (q : Fin 64) :
    k0_pay1 (F := Ideal) x w (ix2 p q) = ∑ u : Fin 256, x (ix2 p u) * w (ix2 u q) := by
  unfold k0_pay1
  exact DenseRows.matmul_rows_apply dot_S5000x256_S256x64_S5000x64_1_0_0_1_n_n rfl rfl (fun _ _ => rfl) (fun _ _ => rfl)
    (fun _ _ => rfl) (fun _ _ => rfl) none (truncf .bf16 x bitsLt_bf16_f32) (truncf .bf16 w bitsLt_bf16_f32) p q

/-- The epilogue body at entry (p, q): scale by the row's normalisation, add the column's bias, clamp below at 0. -/
theorem epilogue_block_apply (a : Vec Ideal S5000x64 .f32) (n : Vec Ideal S5000x1 .f32) (b : Vec Ideal S1x64 .f32)
    (p : Fin 5000) (q : Fin 64) :
    k1_pay1 (F := Ideal) a n b (ix2 p q)
      = max (a (ix2 p q) * n (ix2 p (0 : Fin 1)) + b (ix2 (0 : Fin 1) q)) (Ideal.ofBits .f32 0x00000000#32) := by
  simp only [k1_pay1, maximumf_apply, addf_apply, mulf_apply, shapeCast_self, DenseRows.col_bcast_apply, row_repeat_apply,
    broadcast_apply]
  rfl

end Cert.GcnAgg

end
-- ==== Proof.Spec.lean ====
/-
  What the two blocked stages compute, as functions of whole arrays on the extended reals.

  `project X W` is the matrix product: entry (r, c) is the sum over the 256 input features u of X(r, u) · W(u, c).
  `epilogue A n b` scales row r of A by n(r, 0), adds the bias row b(0, ·) and clamps below at 0.
  Each is written index by index, so that a block of rows of it is read off directly.
-/
import proofs.«148429_j40501541601587_1_alg».proof.KernelIdeal
import Idealize.ShloMosaic.PureOps.Ideal
import Idealize.ShloMosaic.Lib.ValueIdx

noncomputable section

open scoped BigOperators

namespace Cert.GcnAgg

open Idealize.ShloMosaic Idealize.ShloMosaic.ValueIdx Cert.KernelIdeal

/-- The node (row) an entry of a node-by-feature array belongs to, and its output feature (column). -/
def rowOf (i : S50000x64.Idx) : Fin 50000 := i 0
def colOf (i : S50000x64.Idx) : Fin 64 := i 1

/-- The product of the node features with the weights, entry by entry. -/
def project (X : FVec Ideal S50000x256 .f32) (W : FVec Ideal S256x64 .f32) : FVec Ideal S50000x64 .f32 :=
  fun i => ∑ u : Fin 256, X (ix2 (rowOf i) u) * W (ix2 u (colOf i))

/-- Scale each row by its normalisation, add the bias row, clamp below at zero, entry by entry. -/
def epilogue (A : FVec Ideal S50000x64 .f32) (n : FVec Ideal S50000x1 .f32) (b : FVec Ideal S1x64 .f32) :
    FVec Ideal S50000x64 .f32 :=
  fun i => max (A i * n (ix2 (rowOf i) (0 : Fin 1)) + b (ix2 (0 : Fin 1) (colOf i)))
    (Ideal.ofBits .f32 0x00000000#32)

end Cert.GcnAgg

end
-- ==== Proof.ProjectArray.lean ====
/-
  The projection stage, from blocks to the whole array.

  The first blocked stage runs over ten grid points. At point t it reads rows 5000·t … 5000·t + 4999 of the
  node features and the whole weight matrix, and writes the same rows of its result. Its block of rows is the
  matching block of rows of the full product `project X W` (a row of a product depends only on that row of the
  left factor), and the ten blocks cover all 50000 rows, so after the stage the result array holds `project X W`.
  Everything is stated for whatever contents `V` the stage finds in memory when it is entered.
-/
import proofs.«148429_j40501541601587_1_alg».proof.Proof.Gen.KernelIdeal.Frame
import proofs.«148429_j40501541601587_1_alg».proof.Proof.Entries
import proofs.«148429_j40501541601587_1_alg».proof.Proof.Spec
import Idealize.ShloMosaic.Lib.Pipeline.Value
import Idealize.ShloMosaic.Lib.Tactic

noncomputable section

open scoped BigOperators

namespace Cert.GcnAgg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Which block each window is on at grid point t: the features and the result on block row t, the weights fixed. -/
theorem project_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 5000·t … of the feature array. -/
theorem project_features_apply (c : Dev nD) (t : Fin cfg0.N) (y : S5000x256.Idx) (k : S50000x256.Idx)
    (hk0 : (k 0).val = 5000 * t.val + (y 0).val) (hk1 : (k 1).val = (y 1).val) :
    (iblk0 V c 0 t : Vec Ideal S5000x256 .f32) y = (V c main_arg0 : S50000x256.Idx → Elt Ideal .f32) k := by
  obtain ⟨e0, e1, -⟩ := project_index t
  unfold iblk0
  rw [View.read_apply]
  show V c main_arg0 _ = V c main_arg0 _
  refine congrArg _ (funext fun a => Fin.ext ?_)
  match a with
  | ⟨0, _⟩ => show win0_0.index t 0 * 5000 + 1 * (y 0).val = (k 0).val; rw [e0, hk0]; omega
  | ⟨1, _⟩ => show win0_0.index t 1 * 256 + 1 * (y 1).val = (k 1).val; rw [e1, hk1]; omega

/-- The weight block at every point is the whole weight array. -/
theorem project_weights_apply (c : Dev nD) (t : Fin cfg0.N) (y : S256x64.Idx) :
    (iblk0 V c 1 t : Vec Ideal S256x64 .f32) y = (V c main_arg4 : S256x64.Idx → Elt Ideal .f32) y := by
  obtain ⟨-, -, e2, e3, -⟩ := project_index t
  unfold iblk0
  rw [View.read_apply]
  show V c main_arg4 _ = V c main_arg4 _
  refine congrArg _ (funext fun a => Fin.ext ?_)
  match a with
  | ⟨0, _⟩ => show win0_1.index t 0 * 256 + 1 * (y 0).val = (y 0).val; rw [e2]; omega
  | ⟨1, _⟩ => show win0_1.index t 1 * 64 + 1 * (y 1).val = (y 1).val; rw [e3]; omega

/-- A block of rows of a product, from the same rows of the left factor: entry j of the block's product is
    entry i of the full product when i is j moved down by the block's first row. -/
theorem project_rows (X : FVec Ideal S50000x256 .f32) (W : FVec Ideal S256x64 .f32)
    (x : Vec Ideal S5000x256 .f32) (w : Vec Ideal S256x64 .f32) (o : Nat)
    (hx : ∀ (y : S5000x256.Idx) (k : S50000x256.Idx), (k 0).val = o + (y 0).val → (k 1).val = (y 1).val → x y = X k)
    (hw : ∀ y, w y = W y) (j : S5000x64.Idx) (i : S50000x64.Idx)
    (hi0 : (i 0).val = o + (j 0).val) (hi1 : (i 1).val = (j 1).val) :
    k0_pay1 (F := Ideal) x w j = project X W i := by
  obtain ⟨p, q, rfl⟩ : ∃ (p : Fin 5000) (q : Fin 64), j = ix2 p q := ⟨j 0, j 1, eq_ix2 j⟩
  rw [project_block_apply]
  unfold project
  refine Finset.sum_congr rfl fun u _ => ?_
  rw [hx (ix2 p u) (ix2 (rowOf i) u) hi0 rfl, hw]
  refine congrArg (fun z => X _ * W z) (funext fun a => Fin.ext ?_)
  match a with
  | ⟨0, _⟩ => rfl
  | ⟨1, _⟩ => exact hi1.symm

/-- What point t writes back is block t of the full product of the arrays the stage found. -/
theorem project_flushed (c : Dev nD) (t : Fin cfg0.N) :
    (dat0 V c).flushed 2 t
      = ((cfg0.win 2).blk t).view.read (Elt Ideal) (project (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨-, -, -, -, e4, e5⟩ := project_index t
  funext j
  rw [View.read_apply]
  refine project_rows (V c main_arg0) (V c main_arg4) (iblk0 V c 0 t) (iblk0 V c 1 t) (5000 * t.val)
    (fun y k h0 h1 => project_features_apply V c t y k h0 h1) (fun y => project_weights_apply V c t y) j _ ?_ ?_
  · show win0_2.index t 0 * 5000 + 1 * (j 0).val = 5000 * t.val + (j 0).val; rw [e4]; omega
  · show win0_2.index t 1 * 64 + 1 * (j 1).val = (j 1).val; rw [e5]; omega

/-- An index of the result array is in point t's block iff its row is among the block's 5000 rows. -/
theorem project_mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Every row of the result lies in the block of the point numbered by the row's quotient by 5000. -/
theorem project_cover (i : S50000x64.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 64 := (i 1).isLt
  refine ⟨⟨(i 0).val / 5000, by rw [hN]; omega⟩, flush0_2 _, ?_⟩
  rw [project_mem_blk]
  obtain ⟨-, -, -, -, e4, e5⟩ := project_index ⟨(i 0).val / 5000, by rw [hN]; omega⟩
  intro a
  match a with
  | ⟨0, _⟩ =>
    show win0_2.index _ 0 * 5000 ≤ (i 0).val ∧ (i 0).val < win0_2.index _ 0 * 5000 + 5000
    rw [e4]; show (i 0).val / 5000 * 5000 ≤ (i 0).val ∧ (i 0).val < (i 0).val / 5000 * 5000 + 5000; omega
  | ⟨1, _⟩ =>
    show win0_2.index _ 1 * 64 ≤ (i 1).val ∧ (i 1).val < win0_2.index _ 1 * 64 + 64
    rw [e5]; omega

/-- After the stage its result array holds the full product of the feature and weight arrays it found. -/
theorem project_final (c : Dev nD) :
    (dat0 V c).arrAt 2 cfg0.N = project (V c main_arg0) (V c main_arg4) :=
  (dat0 V c).arrAt_eq_of_cover 2 (project (V c main_arg0) (V c main_arg4)) (fun t _ => project_flushed V c t) project_cover

end Cert.GcnAgg

end
-- ==== Proof.EpilogueArray.lean ====
/-
  The epilogue stage, from blocks to the whole array.

  The second blocked stage runs over ten grid points. At point t it reads rows 5000·t … 5000·t + 4999 of the
  aggregated messages and of the normalisation column, and the one bias row, and writes the same rows of its
  result: each entry scaled by its row's normalisation, the column's bias added, clamped below at zero. That is
  the matching block of rows of `epilogue A n b`, and the ten blocks cover all 50000 rows, so after the stage the
  result array holds `epilogue A n b` of the three arrays it found. Everything is stated for whatever contents
  `V` the stage finds in memory when it is entered.
-/
import proofs.«148429_j40501541601587_1_alg».proof.Proof.Gen.KernelIdeal.Frame
import proofs.«148429_j40501541601587_1_alg».proof.Proof.Entries
import proofs.«148429_j40501541601587_1_alg».proof.Proof.Spec
import Idealize.ShloMosaic.Lib.Pipeline.Value
import Idealize.ShloMosaic.Lib.Tactic

noncomputable section

open scoped BigOperators

namespace Cert.GcnAgg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem no_offsets : (![0, 0] : Fin 2 → Nat) = fun _ => 0 := funext fun a => by fin_cases a <;> rfl

/-- Which block each window is on at grid point t: the messages, the normalisation column and the result on block
    row t, the bias row fixed. -/
theorem epilogue_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The message block at point t is rows 5000·t … of the aggregated messages. -/
theorem epilogue_messages_apply (c : Dev nD) (t : Fin cfg1.N) (y : S5000x64.Idx) (k : S50000x64.Idx)
    (hk0 : (k 0).val = 5000 * t.val + (y 0).val) (hk1 : (k 1).val = (y 1).val) :
    (iblk1 V c 0 t : Vec Ideal S5000x64 .f32) y = (V c main_v20 : S50000x64.Idx → Elt Ideal .f32) k := by
  obtain ⟨e0, e1, -⟩ := epilogue_index t
  unfold iblk1
  rw [View.read_apply]
  show V c main_v20 _ = V c main_v20 _
  refine congrArg _ (funext fun a => Fin.ext ?_)
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- The normalisation block at point t is entries 5000·t … of the normalisation column. -/
theorem epilogue_norm_apply (c : Dev nD) (t : Fin cfg1.N) (y : S5000x1.Idx) (k : S50000x1.Idx)
    (hk0 : (k 0).val = 5000 * t.val + (y 0).val) (hk1 : (k 1).val = (y 1).val) :
    (iblk1 V c 1 t : Vec Ideal S5000x1 .f32) y = (V c main_v21 : S50000x1.Idx → Elt Ideal .f32) k := by
  obtain ⟨-, -, e2, e3, -⟩ := epilogue_index t
  unfold iblk1
  rw [View.read_apply]
  show V c main_v21 _ = V c main_v21 _
  refine congrArg _ (funext fun a => Fin.ext ?_)
  match a with
  | ⟨0, _⟩ => show win1_1.index t 0 * 5000 + 1 * (y 0).val = (k 0).val; rw [e2, hk0]; omega
  | ⟨1, _⟩ => show win1_1.index t 1 * 1 + 1 * (y 1).val = (k 1).val; rw [e3, hk1]; omega

/-- The bias block at every point is the whole bias row. -/
theorem epilogue_bias_apply (c : Dev nD) (t : Fin cfg1.N) (y : S1x64.Idx) :
    (iblk1 V c 2 t : Vec Ideal S1x64 .f32) y = (V c main_v22 : S1x64.Idx → Elt Ideal .f32) y := by
  obtain ⟨-, -, -, -, e4, e5, -⟩ := epilogue_index t
  unfold iblk1
  rw [View.read_apply]
  show V c main_v22 _ = V c main_v22 _
  refine congrArg _ (funext fun a => Fin.ext ?_)
  match a with
  | ⟨0, _⟩ => show win1_2.index t 0 * 1 + 1 * (y 0).val = (y 0).val; rw [e4]; omega
  | ⟨1, _⟩ => show win1_2.index t 1 * 64 + 1 * (y 1).val = (y 1).val; rw [e5]; omega

/-- A block of rows of the epilogue, from the same rows of the messages and of the normalisation column: entry j of
    the block is entry i of the whole when i is j moved down by the block's first row. -/
theorem epilogue_rows (A : FVec Ideal S50000x64 .f32) (N : FVec Ideal S50000x1 .f32) (B : FVec Ideal S1x64 .f32)
    (a : Vec Ideal S5000x64 .f32) (n : Vec Ideal S5000x1 .f32) (b : Vec Ideal S1x64 .f32) (o : Nat)
    (ha : ∀ (y : S5000x64.Idx) (k : S50000x64.Idx), (k 0).val = o + (y 0).val → (k 1).val = (y 1).val → a y = A k)
    (hn : ∀ (y : S5000x1.Idx) (k : S50000x1.Idx), (k 0).val = o + (y 0).val → (k 1).val = (y 1).val → n y = N k)
    (hb : ∀ y, b y = B y) (j : S5000x64.Idx) (i : S50000x64.Idx)
    (hi0 : (i 0).val = o + (j 0).val) (hi1 : (i 1).val = (j 1).val) :
    k1_pay1 (F := Ideal) a n b j = epilogue A N B i := by
  obtain ⟨p, q, rfl⟩ : ∃ (p : Fin 5000) (q : Fin 64), j = ix2 p q := ⟨j 0, j 1, eq_ix2 j⟩
  rw [epilogue_block_apply]
  unfold epilogue
  rw [ha (ix2 p q) i hi0 hi1, hn (ix2 p (0 : Fin 1)) (ix2 (rowOf i) (0 : Fin 1)) hi0 rfl, hb]
  refine congrArg (fun z => max (A i * N _ + B z) _) (funext fun ax => Fin.ext ?_)
  match ax with
  | ⟨0, _⟩ => rfl
  | ⟨1, _⟩ => exact hi1.symm

/-- What point t writes back is block t of the epilogue of the arrays the stage found. -/
theorem epilogue_flushed (c : Dev nD) (t : Fin cfg1.N) :
    (dat1 V c).flushed 3 t
      = ((cfg1.win 3).blk t).view.read (Elt Ideal) (epilogue (V c main_v20) (V c main_v21) (V c main_v22)) := by
  show (cfg1.win 3).cut (grid1.coords t) ((dat1 V c).after 3 t) = _
  rw [after1_3]
  unfold out1_3
  rw [View.canon_unit_zero no_offsets]
  simp only [View.ld_unit_zero (S := S5000x64) no_offsets, View.ld_unit_zero (S := S5000x1) no_offsets,
    View.ld_unit_zero (S := S1x64) no_offsets]
  obtain ⟨-, -, -, -, -, -, e6, e7⟩ := epilogue_index t
  funext j
  rw [View.read_apply]
  refine epilogue_rows (V c main_v20) (V c main_v21) (V c main_v22) (iblk1 V c 0 t) (iblk1 V c 1 t) (iblk1 V c 2 t)
    (5000 * t.val) (fun y k h0 h1 => epilogue_messages_apply V c t y k h0 h1)
    (fun y k h0 h1 => epilogue_norm_apply V c t y k h0 h1) (fun y => epilogue_bias_apply V c t y) j _ ?_ ?_
  · show win1_3.index t 0 * 5000 + 1 * (j 0).val = 5000 * t.val + (j 0).val; rw [e6]; omega
  · show win1_3.index t 1 * 64 + 1 * (j 1).val = (j 1).val; rw [e7]; omega

/-- An index of the result array is in point t's block iff its row is among the block's 5000 rows. -/
theorem epilogue_mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v23).slice (win1_3.rect t)).set ↔ _
  rw [View.set_slice_whole, Rect.mem_set_unit]
  exact Iff.rfl

/-- Every row of the result lies in the block of the point numbered by the row's quotient by 5000. -/
theorem epilogue_cover (i : S50000x64.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 64 := (i 1).isLt
  refine ⟨⟨(i 0).val / 5000, by rw [hN]; omega⟩, flush1_3 _, ?_⟩
  rw [epilogue_mem_blk]
  obtain ⟨-, -, -, -, -, -, e6, e7⟩ := epilogue_index ⟨(i 0).val / 5000, by rw [hN]; omega⟩
  intro a
  match a with
  | ⟨0, _⟩ =>
    show win1_3.index _ 0 * 5000 ≤ (i 0).val ∧ (i 0).val < win1_3.index _ 0 * 5000 + 5000
    rw [e6]; show (i 0).val / 5000 * 5000 ≤ (i 0).val ∧ (i 0).val < (i 0).val / 5000 * 5000 + 5000; omega
  | ⟨1, _⟩ =>
    show win1_3.index _ 1 * 64 ≤ (i 1).val ∧ (i 1).val < win1_3.index _ 1 * 64 + 64
    rw [e7]; omega

/-- After the stage its result array holds the epilogue of the three arrays it found. -/
theorem epilogue_final (c : Dev nD) :
    (dat1 V c).arrAt 3 cfg1.N = epilogue (V c main_v20) (V c main_v21) (V c main_v22) :=
  (dat1 V c).arrAt_eq_of_cover 3 (epilogue (V c main_v20) (V c main_v21) (V c main_v22))
    (fun t _ => epilogue_flushed V c t) epilogue_cover

end Cert.GcnAgg

end
-- ==== Proof.Aggregate.lean ====
/-
  The edge stage between the two blocked stages, as one function of whole arrays.

  For every edge e the message is row src(e) of the projected features scaled by norm(src(e)); the messages are
  summed into row dst(e) of an array of zeros. A negative source index is first moved up by the number of nodes,
  and the gathers and the scatter treat out-of-range indices as the host operations do. The function is never
  opened: both programs apply these same host operations, so it is enough that they are applied to equal arrays.
  `layer` puts the three stages together.
-/
import proofs.«148429_j40501541601587_1_alg».proof.Proof.Gen.KernelIdeal
import proofs.«148429_j40501541601587_1_alg».proof.Proof.Spec
import Idealize.ShloMosaic.PureOps.Ideal

noncomputable section

namespace Cert.GcnAgg

open Idealize.ShloMosaic Cert.KernelIdeal Cert.KernelIdeal.Facts₀

/-- A source index below zero counted from the end of the node axis. -/
def wrapped (src : (⟨S800000, .i32⟩ : BufTy).Contents (Elt Ideal)) : (⟨S800000, .i32⟩ : BufTy).Contents (Elt Ideal) :=
  select (cmpi .slt src (broadcastInDim S800000 ![] bcast_S_S800000 (constantI S_ 32 0#32)))
    (addi src (broadcastInDim S800000 ![] bcast_S_S800000 (constantI S_ 32 50000#32))) src

/-- Messages hw[src] · norm[src] summed over the edges into the rows dst of a zero array. -/
def aggregate (hw : (⟨S50000x64, .f32⟩ : BufTy).Contents (Elt Ideal)) (norm : (⟨S50000, .f32⟩ : BufTy).Contents (Elt Ideal))
    (src dst : (⟨S800000, .i32⟩ : BufTy).Contents (Elt Ideal)) : (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf
      (Host.gather gather_S50000x64_S800000x1_S800000x64_1_0_n_n_0_1_164 hw
        (broadcastInDim S800000x1 ![0] bcast_S800000_S800000x1_0 (wrapped src)))
      (broadcastInDim S800000x64 ![0, 1] bcast_S800000x1_S800000x64_0_1
        (broadcastInDim S800000x1 ![0] bcast_S800000_S800000x1_0
          (Host.gather gather_S50000_S800000x1_S800000_n_0_n_n_0_1_1 norm
            (broadcastInDim S800000x1 ![0] bcast_S800000_S800000x1_0 (wrapped src))))))

/-- The whole layer: project the features, sum the scaled messages over the edges, then scale each row by its
    normalisation (the normalisation vector laid out as a column), add the bias (laid out as a row), clamp at zero. -/
def layer (h : (⟨S50000x256, .f32⟩ : BufTy).Contents (Elt Ideal)) (norm : (⟨S50000, .f32⟩ : BufTy).Contents (Elt Ideal))
    (src dst : (⟨S800000, .i32⟩ : BufTy).Contents (Elt Ideal)) (w : (⟨S256x64, .f32⟩ : BufTy).Contents (Elt Ideal))
    (bias : (⟨S64, .f32⟩ : BufTy).Contents (Elt Ideal)) : (⟨S50000x64, .f32⟩ : BufTy).Contents (Elt Ideal) :=
  epilogue (aggregate (project h w) norm src dst) (shapeCast S50000x1 norm shapeCasts_S50000_S50000x1)
    (shapeCast S1x64 bias shapeCasts_S64_S1x64)

end Cert.GcnAgg

end
-- ==== Proof.KernelRun.lean ====
/-
  The blocked program's run, read back: its result array holds `layer` of the six argument arrays.

  The program is two blocked stages with a stretch of host operations between them. Memory is followed from the
  launch to the return: the first stage leaves the projected features in its result array and nothing else changed
  (ProjectArray); the host stretch writes the aggregated messages, the normalisation as a column and the bias as a
  row, each a function of arrays the first stage left; the second stage leaves the epilogue of those three in the
  program's result array (EpilogueArray). The run itself — every weakly fair execution terminates, without a fault,
  with every buffer that outlives the stages at the contents this bookkeeping names — is the library's theorem for a
  program of stages and host stretches, applied to the two stages' per-point obligations.
-/
import proofs.«148429_j40501541601587_1_alg».proof.Proof.Gen.KernelIdeal.Frame
import proofs.«148429_j40501541601587_1_alg».proof.Proof.ProjectArray
import proofs.«148429_j40501541601587_1_alg».proof.Proof.EpilogueArray
import proofs.«148429_j40501541601587_1_alg».proof.Proof.Aggregate
import Idealize.ShloMosaic.Lib.StableHlo.Run

set_option maxRecDepth 16384

noncomputable section

namespace Cert.GcnAgg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, nothing faulting, and every buffer that outlives the stages ends at the
    contents followed through the two stages and the host stretch (`W3`). -/
theorem run_named : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- After the first stage its result array holds the projected features of the launch arrays. -/
theorem projected (c : Dev nD) :
    V1 m ρ c main_v0 = project (m ((c : Thread nD τ).loc main_arg0)) (m ((c : Thread nD τ).loc main_arg4)) :=
  (W1_arr m ρ c 2).trans (project_final (V0 m ρ) c)

/-- The first stage leaves the normalisation vector, both index vectors and the bias as launched. -/
theorem kept_norm (c : Dev nD) : V1 m ρ c main_arg1 = m ((c : Thread nD τ).loc main_arg1) := W1_of_ne m ρ c main_arg1 (by decide)
theorem kept_src (c : Dev nD) : V1 m ρ c main_arg2 = m ((c : Thread nD τ).loc main_arg2) := W1_of_ne m ρ c main_arg2 (by decide)
theorem kept_dst (c : Dev nD) : V1 m ρ c main_arg3 = m ((c : Thread nD τ).loc main_arg3) := W1_of_ne m ρ c main_arg3 (by decide)
theorem kept_bias (c : Dev nD) : V1 m ρ c main_arg5 = m ((c : Thread nD τ).loc main_arg5) := W1_of_ne m ρ c main_arg5 (by decide)

/-- What the host stretch leaves for the second stage: the aggregated messages, … -/
theorem entry_messages (c : Dev nD) :
    V2 m ρ c main_v20 = aggregate (V1 m ρ c main_v0) (V1 m ρ c main_arg1) (V1 m ρ c main_arg2) (V1 m ρ c main_arg3) := by
  show StableHlo.after hostOps1 (W1 m ρ c) (Proc.devRef .tc main_v20)
    = aggregate (W1 m ρ c (Proc.devRef .tc main_v0)) (W1 m ρ c (Proc.devRef .tc main_arg1)) (W1 m ρ c (Proc.devRef .tc main_arg2))
        (W1 m ρ c (Proc.devRef .tc main_arg3))
  generalize W1 m ρ c = W
  after_results_simp
  rfl

/-- … the normalisation vector laid out as a column, … -/
theorem entry_norm (c : Dev nD) :
    V2 m ρ c main_v21 = shapeCast S50000x1 (V1 m ρ c main_arg1) Facts₀.shapeCasts_S50000_S50000x1 := by
  show StableHlo.after hostOps1 (W1 m ρ c) (Proc.devRef .tc main_v21)
    = shapeCast S50000x1 (W1 m ρ c (Proc.devRef .tc main_arg1)) Facts₀.shapeCasts_S50000_S50000x1
  generalize W1 m ρ c = W
  after_results_simp
  rfl

/-- … and the bias laid out as a row. -/
theorem entry_bias (c : Dev nD) :
    V2 m ρ c main_v22 = shapeCast S1x64 (V1 m ρ c main_arg5) Facts₀.shapeCasts_S64_S1x64 := by
  show StableHlo.after hostOps1 (W1 m ρ c) (Proc.devRef .tc main_v22)
    = shapeCast S1x64 (W1 m ρ c (Proc.devRef .tc main_arg5)) Facts₀.shapeCasts_S64_S1x64
  generalize W1 m ρ c = W
  after_results_simp
  rfl

/-- At the return the program's result array holds the whole layer of the launch arrays. -/
theorem result_eq (c : Dev nD) :
    W3 m ρ c (Proc.devRef .tc main_v23)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W3_arr m ρ c 3).trans ((epilogue_final (V2 m ρ) c).trans ?_)
  rw [entry_messages, entry_norm, entry_bias, projected, kept_norm, kept_src, kept_dst, kept_bias]
  rfl

/-- The run, read: the result array at the whole layer of the launch arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v23)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
    ⟨(h c _ (mem_uc main_v23 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩)
    (run_named m ρ)

end Cert.GcnAgg

end
-- ==== Proof.LibUnitAxes.lean ====
/-
  A vector given a unit axis.

  A vector of length `N` can be made a column `[N, 1]` or a one-row matrix `[1, N]` either by a reshape (which
  keeps the row-major position of every entry) or by a broadcast along the axis that keeps the vector's coordinate.
  Both spellings denote the same array: the entry at `(p, 0)` of the column, and the entry at `(0, q)` of the
  one-row matrix, is the vector's entry at `p`, at `q`. Nothing here depends on the element type.
-/
import Idealize.ShloMosaic.Lib.ValueIdx
import Idealize.ShloMosaic.Lib.Pipeline.Value

noncomputable section

namespace UnitAxes

open Idealize.ShloMosaic Idealize.ShloMosaic.ValueIdx

variable {α : Type} {N : Nat}

/-- A vector reshaped to a column is the vector broadcast along axis 0 of the column's shape. -/
theorem col_reshape_eq_broadcast (v : (⟨1, ![N]⟩ : Shape).Idx → α)
    (h : (⟨1, ![N]⟩ : Shape).ShapeCasts ⟨2, ![N, 1]⟩)
    (h' : (⟨1, ![N]⟩ : Shape).BroadcastsInDim ⟨2, ![N, 1]⟩ ![0]) :
    shapeCast (⟨2, ![N, 1]⟩ : Shape) v h = broadcastInDim (⟨2, ![N, 1]⟩ : Shape) ![0] h' v := by
  funext j
  have hj0 : (j 0).val < N := (j 0).isLt
  have hj1 : (j 1).val < 1 := (j 1).isLt
  have e1 : shapeCast (⟨2, ![N, 1]⟩ : Shape) v h j = v (ix1 ⟨(j 0).val, hj0⟩) :=
    shapeCast_apply v h j (ix1 ⟨(j 0).val, hj0⟩) (by
      rw [Shape.rowMajor_val_one, Shape.rowMajor_val_two]
      show (j 0).val = (j 0).val * 1 + (j 1).val
      omega)
  have e2 : broadcastInDim (⟨2, ![N, 1]⟩ : Shape) ![0] h' v j = v (ix1 ⟨(j 0).val, hj0⟩) :=
    broadcastInDim_apply ![0] h' v j (ix1 ⟨(j 0).val, hj0⟩) (fun a => by
      match a with
      | ⟨0, _⟩ =>
        show (j 0).val = if N = 1 then 0 else (j 0).val
        split <;> omega)
  rw [e1, e2]

/-- A vector reshaped to a one-row matrix reads, in its row, the vector. -/
theorem row_reshape_apply (v : (⟨1, ![N]⟩ : Shape).Idx → α)
    (h : (⟨1, ![N]⟩ : Shape).ShapeCasts ⟨2, ![1, N]⟩) (q : Fin N) :
    shapeCast (⟨2, ![1, N]⟩ : Shape) v h (ix2 (0 : Fin 1) q) = v (ix1 q) := by
  refine shapeCast_apply v h (ix2 (0 : Fin 1) q) (ix1 q) ?_
  rw [Shape.rowMajor_val_one, Shape.rowMajor_val_two]
  show q.val = 0 * N + q.val
  omega

end UnitAxes

end
-- ==== Proof.Reference.lean ====
/-
  The reference program's result is `layer` of its six arguments.

  The reference computes the product of the features with the weights as one host product, applies to it the
  same edge stage as the blocked program (the same gathers, product and scatter-add, operation for operation), then
  multiplies by the normalisation broadcast along the rows, adds the bias broadcast down the rows and takes the
  maximum with zero. Entry by entry: the host product is the sum over the 256 input features, which is `project`;
  a vector broadcast into a column and then along the rows reads, at (r, c), the vector at r, as does the same
  vector reshaped to a column and read at (r, 0); likewise for the bias as a row. So the reference's result is the
  same function `layer` of the arguments as the blocked program's.
-/
import proofs.«148429_j40501541601587_1_alg».proof.Proof.Gen.ReferenceIdeal.Read
import proofs.«148429_j40501541601587_1_alg».proof.Proof.Aggregate
import proofs.«148429_j40501541601587_1_alg».proof.Proof.LibDenseRows
import proofs.«148429_j40501541601587_1_alg».proof.Proof.LibUnitAxes

noncomputable section

open scoped BigOperators

namespace Cert.GcnAgg

open Idealize.ShloMosaic Idealize.ShloMosaic.ValueIdx
open Cert.ReferenceIdeal Cert.ReferenceIdeal.Read

/-- The host product of the features with the weights is the sum over the input features, entry by entry. -/
theorem ref_project (x0 : (⟨S50000x256, .f32⟩ : BufTy).Contents (Elt Ideal)) (x4 : (⟨S256x64, .f32⟩ : BufTy).Contents (Elt Ideal)) :
    val_main_v0 (F := Ideal) x0 x4 = project x0 x4 := by
  funext i
  rw [val_main_v0_apply]
  unfold project
  have el : ∀ k : Fin 256, lidx_main_v0 i k = ix2 (rowOf i) k := fun k =>
    funext fun a => by match a with | ⟨0, _⟩ => rfl | ⟨1, _⟩ => rfl
  have er : ∀ k : Fin 256, ridx_main_v0 i k = ix2 k (colOf i) := fun k =>
    funext fun a => by match a with | ⟨0, _⟩ => rfl | ⟨1, _⟩ => rfl
  exact Finset.sum_congr rfl fun k _ => by rw [el, er]

/-- The reference's edge stage is the blocked program's, applied to the reference's product: the same host
    operations in the same order. -/
theorem ref_messages (x0 : (⟨S50000x256, .f32⟩ : BufTy).Contents (Elt Ideal)) (x1 : (⟨S50000, .f32⟩ : BufTy).Contents (Elt Ideal))
    (x2 x3 : (⟨S800000, .i32⟩ : BufTy).Contents (Elt Ideal)) (x4 : (⟨S256x64, .f32⟩ : BufTy).Contents (Elt Ideal)) :
    val_main_v20 (F := Ideal) x0 x1 x2 x3 x4 = aggregate (val_main_v0 (F := Ideal) x0 x4) x1 x2 x3 := rfl

/-- The reference's result is the whole layer. -/
theorem ref_layer (x0 : (⟨S50000x256, .f32⟩ : BufTy).Contents (Elt Ideal)) (x1 : (⟨S50000, .f32⟩ : BufTy).Contents (Elt Ideal))
    (x2 x3 : (⟨S800000, .i32⟩ : BufTy).Contents (Elt Ideal)) (x4 : (⟨S256x64, .f32⟩ : BufTy).Contents (Elt Ideal))
    (x5 : (⟨S64, .f32⟩ : BufTy).Contents (Elt Ideal)) :
    val_main_v27 (F := Ideal) x0 x1 x2 x3 x4 x5 = layer x0 x1 x2 x3 x4 x5 := by
  funext i
  rw [val_main_v27_apply, val_main_v26_apply, val_main_v23_apply, val_main_v22_apply, val_main_v21_apply,
    val_main_v25_apply, val_main_v24_apply, val_main_call0_v0_apply, val_main_call0_cst_apply, ref_messages, ref_project]
  unfold layer epilogue
  rw [DenseRows.col_cast_apply, UnitAxes.row_reshape_apply]
  have e1 : idx_main_v21 (idx_main_v22 i) = ix1 (rowOf i) := funext fun a => by match a with | ⟨0, _⟩ => rfl
  have e5 : idx_main_v24 (idx_main_v25 i) = ix1 (colOf i) := funext fun a => by match a with | ⟨0, _⟩ => rfl
  rw [e1, e5]
  rfl

end Cert.GcnAgg

end
-- ==== Proof.lean ====
/-
  A graph-convolution layer computed in blocks equals the layer computed whole.

  The layer: project the node features, out = relu(norm ⊙ (Σ over edges e with dst(e) = · of (h·W)[src(e)] · norm[src(e)]) + bias).
  The blocked program computes h·W ten blocks of 5000 rows at a time (operands rounded to bf16, which is the
  identity on the extended reals), forms and sums the edge messages with the same host operations as the
  reference, and applies the scale–bias–clamp epilogue again ten blocks of 5000 rows at a time, with the
  normalisation laid out as a column and the bias as a row. The reference computes the same three steps on whole
  arrays. On the extended reals both results are one function `layer` of the six arguments: a row of a matrix
  product depends only on that row of the left factor, the edge stage is applied to equal arrays, and the epilogue
  acts entry by entry. No arithmetic law beyond reading each operation at an index is used, and no entry needs
  to be finite.

  The three frame claims are the generated ones (the reference's is its generated run with the result dropped);
  the idealization rewrote no operation, so its claim is trivial; the value claim pairs the blocked program's run
  (KernelRun) with the reference's generated run read through Reference.
-/
import proofs.«148429_j40501541601587_1_alg».proof.Defs
import proofs.«148429_j40501541601587_1_alg».proof.Proof.Gen.Kernel
import proofs.«148429_j40501541601587_1_alg».proof.Proof.Gen.Kernel.Frame
import proofs.«148429_j40501541601587_1_alg».proof.Proof.Gen.KernelIdeal
import proofs.«148429_j40501541601587_1_alg».proof.Proof.Gen.KernelIdeal.Frame
import proofs.«148429_j40501541601587_1_alg».proof.Proof.Gen.ReferenceIdeal
import proofs.«148429_j40501541601587_1_alg».proof.Proof.Gen.ReferenceIdeal.Run
import proofs.«148429_j40501541601587_1_alg».proof.Proof.Gen.ReferenceIdeal.Read
import proofs.«148429_j40501541601587_1_alg».proof.Proof.Gen.Pre_finite_inputs
import proofs.«148429_j40501541601587_1_alg».proof.Proof.KernelRun
import proofs.«148429_j40501541601587_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments, the blocked program's result array and the reference's both end at
    `layer` of those arguments. -/
theorem algebraic : Cert.algebraic_KernelIdeal_ReferenceIdeal := by
  intro m ρ m' ρ' _ hagree
  refine ⟨_, Cert.GcnAgg.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.GcnAgg.ref_layer, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
